-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x16 : Shape := ⟨2, ![1600000, 16]⟩
abbrev S1600000 : Shape := ⟨1, ![1600000]⟩
abbrev S146x128 : Shape := ⟨2, ![146, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S146x128 : S_.BroadcastsInDim S146x128 (![] : Fin 0 → Fin S146x128.rank)
  reducesTo_S146x128_S_d0_1 : S146x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128 .f32) (main_arg11 : FVec F S128 .f32) (main_arg12 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : FVec F S1600000x16 .f32) (main_arg2 : IVec S1600000 32) (main_arg3 : IVec S1600000 32) (main_arg4 : IVec S1600000 32) (main_arg5 : FVec F S146x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S146x128 .f32 := Host.absf main_arg5
  let main_cst_2 : FVec F S_ .f32 := constant S_ .f32 0x7F800000#32
  let main_v10 : FVec F S146x128 .f32 := broadcastInDim S146x128 ![] bcast_S_S146x128 main_cst_2
  let main_v11 : IVec S146x128 1 := cmpf .olt main_v9 main_v10
  let main_c_3 : IVec S_ 1 := constantI S_ 1 1#1
  let main_v12 : IVec S_ 1 := (fun x v => Host.reduce IntOp.andi x v reducesTo_S146x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S1600000x16 : Shape := ⟨2, ![1600000, 16]⟩
abbrev S1600000 : Shape := ⟨1, ![1600000]⟩
abbrev S146x128 : Shape := ⟨2, ![146, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1x2 : Shape := ⟨2, ![1, 2]⟩
abbrev S1600000x2 : Shape := ⟨2, ![1600000, 2]⟩
abbrev S1600000x18 : Shape := ⟨2, ![1600000, 18]⟩
abbrev S18x128 : Shape := ⟨2, ![18, 128]⟩
abbrev S4000x128 : Shape := ⟨2, ![4000, 128]⟩
abbrev S4000x18 : Shape := ⟨2, ![4000, 18]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 37
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S146x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .i32⟩
  | .hbm, ⟨23, _⟩ => ⟨S1x2, .i32⟩
  | .hbm, ⟨24, _⟩ => ⟨S1600000x2, .i32⟩
  | .hbm, ⟨25, _⟩ => ⟨S1600000x2, .i32⟩
  | .hbm, ⟨26, _⟩ => ⟨S1600000x2, .i1⟩
  | .hbm, ⟨27, _⟩ => ⟨S1600000x2, .f32⟩
  | .hbm, ⟨28, _⟩ => ⟨S1600000x18, .f32⟩
  | .hbm, ⟨29, _⟩ => ⟨S128x128, .f32⟩
  | .hbm, ⟨30, _⟩ => ⟨S18x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x18, .f32⟩
  | .local _ .vmem, ⟨3, _⟩ => ⟨S4000x18, .f32⟩
  | .local _ .vmem, ⟨4, _⟩ => ⟨S128x128, .f32⟩
  | .local _ .vmem, ⟨5, _⟩ => ⟨S18x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S18x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  bcast_S1x2_S1600000x2_0_1 : S1x2.BroadcastsInDim S1600000x2 (![0, 1] : Fin 2 → Fin S1600000x2.rank)
  concatenates_S1600000x16_S1600000x2_S1600000x18_d1 : Shape.Concatenates [S1600000x16, S1600000x2] S1600000x18 1
  slices_S146x128_S128x128_0_0 : S146x128.Slices ![0, 0] S128x128
  slices_S146x128_S18x128_128_0 : S146x128.Slices ![128, 0] S18x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x18_S4000x18_0_0 : ∀ a, (![0, 0] : Fin 2 → Nat) a + S4000x18.size a ≤ S4000x18.size a
  h_S4000x18 : 0 < S4000x18.numel
  shapeCasts_S4000x18_S4000x18 : S4000x18.ShapeCasts S4000x18
  inb_S18x128_S18x128_0_0 : ∀ a, (![0, 0] : Fin 2 → Nat) a + S18x128.size a ≤ S18x128.size a
  h_S18x128 : 0 < S18x128.numel
  shapeCasts_S18x128_S18x128 : S18x128.ShapeCasts S18x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  dot_S4000x128_S128x128_S4000x128_1_0_0_1_n_n_wf : DotDims.WF S4000x128 S128x128 S4000x128 [1] [0] [0] [1] [] []
  dot_S4000x18_S18x128_S4000x128_1_0_0_1_n_n_wf : DotDims.WF S4000x18 S18x128 S4000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1600000x128.size a
  hwx0_0 : ∀ i : grid0.Coords, EltTy.bits .f32 = 32 ∨ (Rect.block (s := S1600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x18.size a ≤ S1600000x18.size a
  hwx0_1 : ∀ i : grid0.Coords, EltTy.bits .f32 = 32 ∨ (Rect.block (s := S1600000x18) S4000x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S18x128.size a ≤ S18x128.size a
  hwx0_3 : ∀ i : grid0.Coords, EltTy.bits .f32 = 32 ∨ (Rect.block (s := S18x128) S18x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S1600000x128.size a
  hwx0_7 : ∀ i : grid0.Coords, EltTy.bits .f32 = 32 ∨ (Rect.block (s := S1600000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x18_S18x128_S4000x128_1_0_0_1_n_n : DotDims S4000x18 S18x128 S4000x128 where
  lhsContracting := [1]
  rhsContracting := [0]
  lhsNonContracting := [0]
  rhsNonContracting := [1]
  lhsBatch := []
  rhsBatch := []
  wf := dot_S4000x18_S18x128_S4000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S18x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x16 : Shape := ⟨2, ![1600000, 16]⟩
abbrev S1600000 : Shape := ⟨1, ![1600000]⟩
abbrev S146x128 : Shape := ⟨2, ![146, 128]⟩
abbrev S128 : Shape := ⟨1, ![128]⟩
abbrev S128x128 : Shape := ⟨2, ![128, 128]⟩
abbrev S1600000x1 : Shape := ⟨2, ![1600000, 1]⟩
abbrev S1x2 : Shape := ⟨2, ![1, 2]⟩
abbrev S1600000x2 : Shape := ⟨2, ![1600000, 2]⟩
abbrev S_ : Shape := ⟨0, ![]⟩
abbrev S1600000x128 : Shape := ⟨2, ![1600000, 128]⟩
abbrev S1600000x146 : Shape := ⟨2, ![1600000, 146]⟩
abbrev S1x128 : Shape := ⟨2, ![1, 128]⟩
abbrev S100000 : Shape := ⟨1, ![100000]⟩
abbrev S100000x1 : Shape := ⟨2, ![100000, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S146x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1600000x1, .i32⟩
  | .hbm, ⟨14, _⟩ => ⟨S1x2, .i32⟩
  | .hbm, ⟨15, _⟩ => ⟨S1600000x2, .i32⟩
  | .hbm, ⟨16, _⟩ => ⟨S1600000x2, .i32⟩
  | .hbm, ⟨17, _⟩ => ⟨S1600000x2, .i1⟩
  | .hbm, ⟨18, _⟩ => ⟨S1600000x2, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x146, .f32⟩
  | .hbm, ⟨29, _⟩ => ⟨S1600000x128, .f32⟩
  | .hbm, ⟨30, _⟩ => ⟨S1x128, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S1x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call2_cst : Ref sig .tc := ⟨.hbm, 49, rfl⟩
abbrev main_call2_v0 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_3 : Ref sig .tc := ⟨.hbm, 61, rfl⟩
abbrev main_v34 : Ref sig .tc := ⟨.hbm, 62, rfl⟩
abbrev main_v35 : Ref sig .tc := ⟨.hbm, 63, rfl⟩
abbrev main_cst_4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_5 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  bcast_S1x2_S1600000x2_0_1 : S1x2.BroadcastsInDim S1600000x2 (![0, 1] : Fin 2 → Fin S1600000x2.rank)
  bcast_S_S1600000 : S_.BroadcastsInDim S1600000 (![] : Fin 0 → Fin S1600000.rank)
  concatenates_S1600000x128_S1600000x16_S1600000x2_S1600000x146_d1 : Shape.Concatenates [S1600000x128, S1600000x16, S1600000x2] S1600000x146 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  dot_S1600000x146_S146x128_S1600000x128_1_0_0_1_n_n_wf : DotDims.WF S1600000x146 S146x128 S1600000x128 [1] [0] [0] [1] [] []
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x146_S146x128_S1600000x128_1_0_0_1_n_n : DotDims S1600000x146 S146x128 S1600000x128 where
  lhsContracting := [1]
  rhsContracting := [0]
  lhsNonContracting := [0]
  rhsNonContracting := [1]
  lhsBatch := []
  rhsBatch := []
  wf := dot_S1600000x146_S146x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the two-region program with its final memory NAMED. The program is six segments — three stretches of
  host operations, the edge kernel's region, one more stretch (the scatter-add), the node kernel's region — and the
  launch theorem for such a list ends in a thread state that holds every unscoped buffer at the last boundary's
  contents. Here that state is read against the final memory for EVERY unscoped buffer, so that the result buffer
  (the node kernel's output array) is known to hold what the last region's write-backs leave in it.
-/
import proofs.«137087_j40029095199352_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in the final memory every unscoped buffer of every
    core holds the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run with the result buffer read: it holds what the node kernel's write-backs leave in its output
    array, and the thirteen argument arrays are as launched. -/
theorem run_out : θ_run defs (onTc (τ := τ) (main (F := F))) ⟨m, fun _ => 0, ρ⟩ (fun r => ∀ c : Dev nD,
      r.2.mem ((c.tc : Thread nD τ).loc main_v15) = (dat1 (V5 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨(h c _ (mem_uc main_v15 (by decide))).trans (W6_arr m ρ c 6),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)
    (run_all m ρ)

end Cert.KernelIdeal.Run

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.EdgeNodeSpec.lean ====
/-
  What the two kernels compute, row by row, on the extended reals.

  `edgeRow`: one edge's message. From the edge's source-node features `hs r` (128 entries) and its own features
  `ef r` (18 entries: sixteen edge features and the one-hot edge type), a first layer
  `u k = max ((Σ_a hs r a · w1h a k) + (Σ_a ef r a · w1e a k) + b1 k) 0` and a second `(Σ_k u k · w2 k j) + b2 j`.

  `nodeRow`: one node's update. From the node's features `h r`, the summed messages `ms r` and the self weights,
  `p l = max (((Σ_a h r a · ws a l) + bs l) + ms r l) 0`, its mean `μ` and variance `σ²` over the 128 lanes (each a sum
  divided by the literal 128), and the normalized, scaled and shifted entry
  `((p j - μ) · rsqrt (σ² + ε)) · γ j + β j`.

  Both depend on the row-indexed operands through row `r` alone (`edgeRow_congr`, `nodeRow_congr`): a block of rows
  of the kernel's operand and the whole array give the same value at corresponding rows.
-/
import Idealize.ShloMosaic.Lib.ValueIdx
import Idealize.ShloMosaic.PureOps.Ideal

noncomputable section

namespace Cert.GNN

open Idealize.ShloMosaic Idealize.ShloMosaic.ValueIdx

/-- The literal zero both programs clamp at. -/
abbrev zeroLit : EReal := Ideal.ofBits .f32 0x00000000#32
/-- The literal 128 both programs divide the lane sums by. -/
abbrev lanesLit : EReal := Ideal.ofBits .f32 0x43000000#32
/-- The literal both programs add to the variance. -/
abbrev epsLit : EReal := Ideal.ofBits .f32 0x3727C5AC#32

/-- One edge's message at lane `j`. -/
def edgeRow {R : ℕ} (hs : (⟨2, ![R, 128]⟩ : Shape).Idx → EReal) (ef : (⟨2, ![R, 18]⟩ : Shape).Idx → EReal)
    (w1h : (⟨2, ![128, 128]⟩ : Shape).Idx → EReal) (w1e : (⟨2, ![18, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin R) (j : Fin 128) : EReal :=
  (∑ k : Fin 128, max (((∑ a : Fin 128, hs (ix2 r a) * w1h (ix2 a k)) + ∑ a : Fin 18, ef (ix2 r a) * w1e (ix2 a k)) + b1 (ix1 k)) zeroLit
      * w2 (ix2 k j)) + b2 (ix1 j)

theorem edgeRow_congr {R R' : ℕ} (hs : (⟨2, ![R, 128]⟩ : Shape).Idx → EReal) (ef : (⟨2, ![R, 18]⟩ : Shape).Idx → EReal)
    (hs' : (⟨2, ![R', 128]⟩ : Shape).Idx → EReal) (ef' : (⟨2, ![R', 18]⟩ : Shape).Idx → EReal)
    (w1h : (⟨2, ![128, 128]⟩ : Shape).Idx → EReal) (w1e : (⟨2, ![18, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin R) (r' : Fin R') (j : Fin 128)
    (h1 : ∀ a : Fin 128, hs (ix2 r a) = hs' (ix2 r' a)) (h2 : ∀ a : Fin 18, ef (ix2 r a) = ef' (ix2 r' a)) :
    edgeRow hs ef w1h w1e b1 w2 b2 r j = edgeRow hs' ef' w1h w1e b1 w2 b2 r' j := by
  unfold edgeRow
  simp only [h1, h2]

/-- The pre-normalization activation of node row `r` at lane `l`. -/
def nodePre {R : ℕ} (h : (⟨2, ![R, 128]⟩ : Shape).Idx → EReal) (ws : (⟨2, ![128, 128]⟩ : Shape).Idx → EReal)
    (bs : (⟨1, ![128]⟩ : Shape).Idx → EReal) (ms : (⟨2, ![R, 128]⟩ : Shape).Idx → EReal) (r : Fin R) (l : Fin 128) : EReal :=
  max (((∑ a : Fin 128, h (ix2 r a) * ws (ix2 a l)) + bs (ix1 l)) + ms (ix2 r l)) zeroLit

/-- The layer norm of a row `p` of 128 lanes, at lane `j`. -/
def lnRow (p : Fin 128 → EReal) (g b : (⟨1, ![128]⟩ : Shape).Idx → EReal) (j : Fin 128) : EReal :=
  ((p j - Ideal.div (∑ l : Fin 128, p l) lanesLit)
      * Ideal.rsqrt (Ideal.div (∑ l : Fin 128, (p l - Ideal.div (∑ l : Fin 128, p l) lanesLit) * (p l - Ideal.div (∑ l : Fin 128, p l) lanesLit)) lanesLit + epsLit))
    * g (ix1 j) + b (ix1 j)

/-- One node's updated features at lane `j`. -/
def nodeRow {R : ℕ} (h : (⟨2, ![R, 128]⟩ : Shape).Idx → EReal) (ws : (⟨2, ![128, 128]⟩ : Shape).Idx → EReal)
    (bs : (⟨1, ![128]⟩ : Shape).Idx → EReal) (ms : (⟨2, ![R, 128]⟩ : Shape).Idx → EReal)
    (g b : (⟨1, ![128]⟩ : Shape).Idx → EReal) (r : Fin R) (j : Fin 128) : EReal :=
  lnRow (nodePre h ws bs ms r) g b j

theorem nodeRow_congr {R R' : ℕ} (h : (⟨2, ![R, 128]⟩ : Shape).Idx → EReal) (ms : (⟨2, ![R, 128]⟩ : Shape).Idx → EReal)
    (h' : (⟨2, ![R', 128]⟩ : Shape).Idx → EReal) (ms' : (⟨2, ![R', 128]⟩ : Shape).Idx → EReal)
    (ws : (⟨2, ![128, 128]⟩ : Shape).Idx → EReal) (bs g b : (⟨1, ![128]⟩ : Shape).Idx → EReal)
    (r : Fin R) (r' : Fin R') (j : Fin 128)
    (h1 : ∀ a : Fin 128, h (ix2 r a) = h' (ix2 r' a)) (h2 : ∀ a : Fin 128, ms (ix2 r a) = ms' (ix2 r' a)) :
    nodeRow h ws bs ms g b r j = nodeRow h' ws bs ms' g b r' j := by
  unfold nodeRow
  have e : nodePre h ws bs ms r = nodePre h' ws bs ms' r' := by
    funext l; unfold nodePre; simp only [h1, h2]
  rw [e]

/-- The edge kernel's whole output array: row `i 0`, lane `i 1`. -/
def edgeArr {R : ℕ} (hs : (⟨2, ![R, 128]⟩ : Shape).Idx → EReal) (ef : (⟨2, ![R, 18]⟩ : Shape).Idx → EReal)
    (w1h : (⟨2, ![128, 128]⟩ : Shape).Idx → EReal) (w1e : (⟨2, ![18, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![R, 128]⟩ : Shape).Idx → EReal :=
  fun i => edgeRow hs ef w1h w1e b1 w2 b2 (i 0) (i 1)

/-- The node kernel's whole output array. -/
def nodeArr {R : ℕ} (h : (⟨2, ![R, 128]⟩ : Shape).Idx → EReal) (ws : (⟨2, ![128, 128]⟩ : Shape).Idx → EReal)
    (bs : (⟨1, ![128]⟩ : Shape).Idx → EReal) (ms : (⟨2, ![R, 128]⟩ : Shape).Idx → EReal)
    (g b : (⟨1, ![128]⟩ : Shape).Idx → EReal) : (⟨2, ![R, 128]⟩ : Shape).Idx → EReal :=
  fun i => nodeRow h ws bs ms g b (i 0) (i 1)

end Cert.GNN

end
-- ==== Proof.KernelPayloads.lean ====
/-
  The two kernel bodies' arithmetic, read at an index of the output block, at the ideal values.

  The edge kernel's one store holds, at row `r` and lane `j` of its 4000-row block, the two-layer message of that row
  (`GNN.edgeRow`): the two first-layer products are plain matrix products into the zero accumulator, the rounding to
  bf16 on the way into the matrix unit is the identity at the ideal values, the two bias vectors are rows broadcast over
  the block, and the clamp at zero is `max · 0`.

  The node kernel's one store holds, at row `r` and lane `j` of its 5000-row block, the layer norm of the clamped
  pre-activation of that row (`GNN.nodeRow`): the mean and the variance are lane sums of the row divided by 128, kept as
  one-lane columns and broadcast back over the lanes.
-/
import proofs.«137087_j40029095199352_2_alg».proof.Proof.Gen.KernelIdeal.Skeleton
import proofs.«137087_j40029095199352_2_alg».proof.Proof.LibRowOps
import proofs.«137087_j40029095199352_2_alg».proof.Proof.EdgeNodeSpec

noncomputable section

namespace Cert.KernelIdeal.Payload

open Cert.KernelIdeal Cert.KernelIdeal.Gen Idealize.ShloMosaic Idealize.ShloMosaic.ValueIdx Cert.LibRowOps Cert.GNN

/-- The printed dimension numbers of the three matrix products are the plain ones. -/
theorem dotA : dot_S4000x128_S128x128_S4000x128_1_0_0_1_n_n = DotDims.plain 4000 128 128 := rfl
theorem dotB : dot_S4000x18_S18x128_S4000x128_1_0_0_1_n_n = DotDims.plain 4000 18 128 := rfl
theorem dotC : dot_S5000x128_S128x128_S5000x128_1_0_0_1_n_n = DotDims.plain 5000 128 128 := rfl

/-- The edge kernel's stored value at `(r, j)` of its block is the message of the block's row `r` at lane `j`. -/
theorem edge_payload (x0 : Vec Ideal S4000x128 .f32) (x1 : Vec Ideal S4000x18 .f32) (x2 : Vec Ideal S128x128 .f32)
    (x3 : Vec Ideal S18x128 .f32) (x4 : Vec Ideal S128 .f32) (x5 : Vec Ideal S128x128 .f32) (x6 : Vec Ideal S128 .f32)
    (r : Fin 4000) (j : Fin 128) :
    k0_pay1 (F := Ideal) x0 x2 x1 x3 x4 x5 x6 (ix2 r j) = edgeRow x0 x1 x2 x3 x4 x5 x6 r j := by
  unfold k0_pay1 edgeRow
  simp only [shapeCast_self, matmul, addf_apply, maximumf_apply, truncf_apply, broadcast_apply,
    matmul_plain_apply _ dotA, matmul_plain_apply _ dotB, biasRow_apply]
  rfl

/-- The reciprocal square root of a vector, entry by entry. -/
theorem rsqrt_apply {s : Shape} {φ : FTy} (a : FVec Ideal s φ) (i : s.Idx) : rsqrt a i = Ideal.rsqrt (a i) := rfl

/-- The lane sum of a row of the node kernel's block, in the printed spelling of its reduction. -/
theorem rowSum_printed (v : FVec Ideal S5000x128 .f32) (r : Fin 5000) :
    multiReduction .add [1] S5000 v 0x00000000#32 reduces_S5000x128_S5000 (.inl rfl) rfl (ix1 r) = ∑ k : Fin 128, v (ix2 r k) :=
  rowSum_apply v _ _ _ _ r

/-- The node kernel's stored value at `(r, j)` of its block is the updated feature `j` of the block's row `r`. -/
theorem node_payload (x0 : Vec Ideal S5000x128 .f32) (x1 : Vec Ideal S128x128 .f32) (x2 : Vec Ideal S128 .f32)
    (x3 : Vec Ideal S5000x128 .f32) (x4 x5 : Vec Ideal S128 .f32) (r : Fin 5000) (j : Fin 128) :
    k1_pay1 (F := Ideal) x0 x1 x2 x3 x4 x5 (ix2 r j) = nodeRow x0 x1 x2 x3 x4 x5 r j := by
  unfold k1_pay1 nodeRow lnRow nodePre
  simp only [shapeCast_self, matmul, addf_apply, subf_apply, mulf_apply, divf_apply, maximumf_apply, truncf_apply,
    broadcast_apply, rsqrt_apply, matmul_plain_apply _ dotC, biasRow_apply, broadcastTo_a1_ab_apply,
    shapeCast_a_a1_apply]
  rw [rowSum_printed]
  simp only [shapeCast_self, matmul, addf_apply, subf_apply, mulf_apply, divf_apply, maximumf_apply, truncf_apply,
    broadcast_apply, rsqrt_apply, matmul_plain_apply _ dotC, biasRow_apply, broadcastTo_a1_ab_apply,
    shapeCast_a_a1_apply]
  rw [rowSum_printed]
  simp only [shapeCast_self, matmul, addf_apply, subf_apply, mulf_apply, divf_apply, maximumf_apply, truncf_apply,
    broadcast_apply, rsqrt_apply, matmul_plain_apply _ dotC, biasRow_apply, broadcastTo_a1_ab_apply,
    shapeCast_a_a1_apply]
  rw [rowSum_printed]
  simp only [shapeCast_self, matmul, addf_apply, subf_apply, mulf_apply, divf_apply, maximumf_apply, truncf_apply,
    broadcast_apply, rsqrt_apply, matmul_plain_apply _ dotC, biasRow_apply, broadcastTo_a1_ab_apply,
    shapeCast_a_a1_apply, Ideal.ofBits_def]

end Cert.KernelIdeal.Payload

end
-- ==== Proof.KernelEdgeArray.lean ====
/-
  The edge kernel's output array after its region, as one function of the arrays the region finds.

  The grid has 400 points; point `t` reads rows `4000 t … 4000 t + 3999` of the gathered source features and of the
  edge features, the two weight slices and the two bias vectors whole, and writes back rows `4000 t … 4000 t + 3999`
  of the message array. Row `p` of what it writes back is the message of row `4000 t + p` of the whole operands
  (`GNN.edgeRow` depends on the row-indexed operands through that row alone), and every row of the message array
  belongs to exactly the point `row / 4000`: the array ends holding `GNN.edgeArr` of the region-entry arrays.
-/
import proofs.«137087_j40029095199352_2_alg».proof.Proof.Gen.KernelIdeal.Frame
import proofs.«137087_j40029095199352_2_alg».proof.Proof.KernelPayloads

set_option maxRecDepth 16384

noncomputable section

namespace Cert.KernelIdeal.EdgeArray

open Cert.KernelIdeal Cert.KernelIdeal.Gen Cert.KernelIdeal.Payload Cert.GNN
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output are at block row `t`, the
    weights and biases at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `y 0` of the source-feature block at point `t` is row `4000 t + y 0` of the gathered array. -/
theorem blk_hs (c : Dev nD) (t : Fin cfg0.N) (y : S4000x128.Idx) (i : S1600000x128.Idx)
    (h0 : (i 0).val = t.val * 4000 + (y 0).val) (h1 : (i 1).val = (y 1).val) :
    iblk0 V c 0 t y = V c main_v6 i := by
  obtain ⟨e0, e1, -⟩ := idx_facts t
  show V c main_v6 (((cfg0.win 0).blk t).view.emb y) = V c main_v6 i
  refine congrArg (V c main_v6) (funext fun a => Fin.ext ?_)
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- Row `y 0` of the edge-feature block at point `t` is row `4000 t + y 0` of the concatenated array. -/
theorem blk_ef (c : Dev nD) (t : Fin cfg0.N) (y : S4000x18.Idx) (i : S1600000x18.Idx)
    (h0 : (i 0).val = t.val * 4000 + (y 0).val) (h1 : (i 1).val = (y 1).val) :
    iblk0 V c 1 t y = V c main_v8 i := by
  obtain ⟨-, -, e0, e1, -⟩ := idx_facts t
  show V c main_v8 (((cfg0.win 1).blk t).view.emb y) = V c main_v8 i
  refine congrArg (V c main_v8) (funext fun a => Fin.ext ?_)
  match a with
  | ⟨0, _⟩ => show win0_1.index t (0 : Fin 2) * 4000 + 1 * (y 0).val = (i 0).val; omega
  | ⟨1, _⟩ => show win0_1.index t (1 : Fin 2) * 18 + 1 * (y 1).val = (i 1).val; omega

/-- The weight and bias windows hold their whole arrays at every point. -/
theorem whole_w1h (c : Dev nD) (t : Fin cfg0.N) : (iblk0 V c 2 t : S128x128.Idx → EReal) = V c main_v9 := by
  obtain ⟨-, -, -, -, e0, e1, -⟩ := idx_facts t
  funext y
  show V c main_v9 (((cfg0.win 2).blk t).view.emb y) = V c main_v9 y
  refine congrArg (V c main_v9) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem whole_w1e (c : Dev nD) (t : Fin cfg0.N) : (iblk0 V c 3 t : S18x128.Idx → EReal) = V c main_v10 := by
  obtain ⟨-, -, -, -, -, -, e0, e1, -⟩ := idx_facts t
  funext y
  show V c main_v10 (((cfg0.win 3).blk t).view.emb y) = V c main_v10 y
  refine congrArg (V c main_v10) (funext fun a => Fin.ext ?_)
  match a with
  | ⟨0, _⟩ => show win0_3.index t (0 : Fin 2) * 18 + 1 * (y 0).val = (y 0).val; omega
  | ⟨1, _⟩ => show win0_3.index t (1 : Fin 2) * 128 + 1 * (y 1).val = (y 1).val; omega
theorem whole_b1 (c : Dev nD) (t : Fin cfg0.N) : (iblk0 V c 4 t : S128.Idx → EReal) = V c main_arg6 := by
  obtain ⟨-, -, -, -, -, -, -, -, e0, -⟩ := idx_facts t
  funext y
  show V c main_arg6 (((cfg0.win 4).blk t).view.emb y) = V c main_arg6 y
  refine congrArg (V c main_arg6) (funext fun a => Fin.ext ?_)
  match a with
  | ⟨0, _⟩ => show win0_4.index t (0 : Fin 1) * 128 + 1 * (y 0).val = (y 0).val; omega
theorem whole_w2 (c : Dev nD) (t : Fin cfg0.N) : (iblk0 V c 5 t : S128x128.Idx → EReal) = V c main_arg7 := by
  obtain ⟨-, -, -, -, -, -, -, -, -, e0, e1, -⟩ := idx_facts t
  funext y
  show V c main_arg7 (((cfg0.win 5).blk t).view.emb y) = V c main_arg7 y
  refine congrArg (V c main_arg7) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
theorem whole_b2 (c : Dev nD) (t : Fin cfg0.N) : (iblk0 V c 6 t : S128.Idx → EReal) = V c main_arg8 := by
  obtain ⟨-, -, -, -, -, -, -, -, -, -, -, e0, -⟩ := idx_facts t
  funext y
  show V c main_arg8 (((cfg0.win 6).blk t).view.emb y) = V c main_arg8 y
  refine congrArg (V c main_arg8) (funext fun a => Fin.ext ?_)
  match a with
  | ⟨0, _⟩ => show win0_6.index t (0 : Fin 1) * 128 + 1 * (y 0).val = (y 0).val; omega

/-- What a point stores at `(p, q)` of its block is the whole-array message at the row the block's row `p` is. -/
theorem edge_point (HS : S1600000x128.Idx → EReal) (EF : S1600000x18.Idx → EReal)
    (x0 : Vec Ideal S4000x128 .f32) (x1 : Vec Ideal S4000x18 .f32) (x2 : Vec Ideal S128x128 .f32)
    (x3 : Vec Ideal S18x128 .f32) (x4 : Vec Ideal S128 .f32) (x5 : Vec Ideal S128x128 .f32) (x6 : Vec Ideal S128 .f32)
    (tv : ℕ) (p : Fin 4000) (q : Fin 128) (i : S1600000x128.Idx)
    (hi0 : (i 0).val = tv * 4000 + p.val) (hi1 : (i 1).val = q.val)
    (h0 : ∀ (y : S4000x128.Idx) (i' : S1600000x128.Idx), (i' 0).val = tv * 4000 + (y 0).val → (i' 1).val = (y 1).val → x0 y = HS i')
    (h1 : ∀ (y : S4000x18.Idx) (i' : S1600000x18.Idx), (i' 0).val = tv * 4000 + (y 0).val → (i' 1).val = (y 1).val → x1 y = EF i') :
    k0_pay1 (F := Ideal) x0 x2 x1 x3 x4 x5 x6 (ix2 p q) = edgeArr (R := 1600000) HS EF x2 x3 x4 x5 x6 i := by
  rw [edge_payload]
  unfold edgeArr
  have hq : (i 1 : Fin 128) = q := Fin.ext hi1
  rw [hq]
  exact edgeRow_congr x0 x1 HS EF x2 x3 x4 x5 x6 p (i 0) q
    (fun a => h0 (ix2 p a) (ix2 (i 0) a) hi0 rfl) (fun a => h1 (ix2 p a) (ix2 (i 0) a) hi0 rfl)

/-- The message array the region leaves, from the arrays it finds. -/
abbrev G (c : Dev nD) : Buf (Elt Ideal) ((c : Thread nD τ).loc main_v11) :=
  edgeArr (R := 1600000) (V c main_v6) (V c main_v8) (V c main_v9) (V c main_v10) (V c main_arg6) (V c main_arg7) (V c main_arg8)

/-- What point `t` writes back is block `t` of that array. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S4000x18) hz2,
    View.ld_unit_zero (S := S128x128) hz2, View.ld_unit_zero (S := S18x128) hz2, View.ld_unit_zero (S := S128) hz1]
  rw [whole_w1h V c t, whole_w1e V c t, whole_b1 V c t, whole_w2 V c t, whole_b2 V c t]
  obtain ⟨-, -, -, -, -, -, -, -, -, -, -, -, e0, e1⟩ := idx_facts t
  funext y
  obtain ⟨p, q, rfl⟩ : ∃ (p : Fin 4000) (q : Fin 128), y = ix2 p q := ⟨y 0, y 1, eq_ix2 y⟩
  show k0_pay1 (F := Ideal) (iblk0 V c 0 t) (V c main_v9) (iblk0 V c 1 t) (V c main_v10) (V c main_arg6) (V c main_arg7) (V c main_arg8) (ix2 p q)
    = G V c (((cfg0.win 7).blk t).view.emb (ix2 p q))
  refine edge_point (V c main_v6) (V c main_v8) (iblk0 V c 0 t) (iblk0 V c 1 t) (V c main_v9) (V c main_v10) (V c main_arg6)
    (V c main_arg7) (V c main_arg8) t.val p q _ ?_ ?_ (fun y i' a b => blk_hs V c t y i' a b) (fun y i' a b => blk_ef V c t y i' a b)
  · show win0_7.index t (0 : Fin 2) * 4000 + 1 * p.val = t.val * 4000 + p.val; omega
  · show win0_7.index t (1 : Fin 2) * 128 + 1 * q.val = q.val; omega

/-- An index of the message array is in point `t`'s block iff each coordinate is in the block's range on its axis. -/
theorem mem_blk (t : Fin cfg0.N) (i : S1600000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v11).slice (win0_7.rect t)).set ↔ _
  rw [View.set_slice_whole, Rect.mem_set_unit]
  exact Iff.rfl

/-- Every row of the message array is in the block of the point `row / 4000`. -/
theorem cover (i : S1600000x128.Idx) :
    ∃ t : Fin cfg0.N, (cfg0.win 7).flush t = true ∧ i ∈ ((cfg0.win 7).blk t).view.set := by
  have hi0 : (i 0).val < 1600000 := (i 0).isLt
  have hi1 : (i 1).val < 128 := (i 1).isLt
  have hN : cfg0.N = 400 := N_0
  have ht : (i 0).val / 4000 < cfg0.N := by omega
  obtain ⟨-, -, -, -, -, -, -, -, -, -, -, -, e0, e1⟩ := idx_facts ⟨(i 0).val / 4000, ht⟩
  refine ⟨⟨(i 0).val / 4000, ht⟩, flush0_7 _, ?_⟩
  rw [mem_blk]
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, ht⟩ (1 : Fin 2) * 128 ≤ (i 1).val ∧ (i 1).val < win0_7.index ⟨(i 0).val / 4000, ht⟩ (1 : Fin 2) * 128 + 128
    rw [e1]; omega

/-- THE MESSAGE ARRAY after the region. -/
theorem final (c : Dev nD) : (dat0 V c).arrAt 7 cfg0.N = G V c :=
  (dat0 V c).arrAt_eq_of_cover 7 (G V c) (fun t _ => flushed_eq V c t) cover

end Cert.KernelIdeal.EdgeArray

end
-- ==== Proof.KernelNodeArray.lean ====
/-
  The node kernel's output array after its region, as one function of the arrays the region finds.

  The grid has 20 points; point `t` reads rows `5000 t … 5000 t + 4999` of the node features and of the summed
  messages, the self weights and the three vectors whole, and writes back rows `5000 t … 5000 t + 4999` of the result.
  Row `p` of what it writes back is the update of row `5000 t + p` of the whole operands (`GNN.nodeRow` depends on the
  row-indexed operands through that row alone), and every row of the result belongs to exactly the point
  `row / 5000`: the array ends holding `GNN.nodeArr` of the region-entry arrays.
-/
import proofs.«137087_j40029095199352_2_alg».proof.Proof.Gen.KernelIdeal.Frame
import proofs.«137087_j40029095199352_2_alg».proof.Proof.KernelPayloads

set_option maxRecDepth 16384

noncomputable section

namespace Cert.KernelIdeal.NodeArray

open Cert.KernelIdeal Cert.KernelIdeal.Gen Cert.KernelIdeal.Payload Cert.GNN
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output are at block row `t`, the
    weights and the vectors at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 1) = 0
    ∧ win1_5.index t (0 : Fin 1) = 0
    ∧ win1_6.index t (0 : Fin 2) = t.val ∧ win1_6.index t (1 : Fin 2) = 0 :=
  (by decide +kernel : ∀ t : Fin grid1.N, _)

/-- Row `y 0` of the node-feature block at point `t` is row `5000 t + y 0` of the feature array. -/
theorem blk_h (c : Dev nD) (t : Fin cfg1.N) (y : S5000x128.Idx) (i : S100000x128.Idx)
    (h0 : (i 0).val = t.val * 5000 + (y 0).val) (h1 : (i 1).val = (y 1).val) :
    iblk1 V c 0 t y = V c main_arg0 i := by
  obtain ⟨e0, e1, -⟩ := idx_facts t
  show V c main_arg0 (((cfg1.win 0).blk t).view.emb y) = V c main_arg0 i
  refine congrArg (V c main_arg0) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Row `y 0` of the summed-message block at point `t` is row `5000 t + y 0` of the scatter-add's result. -/
theorem blk_ms (c : Dev nD) (t : Fin cfg1.N) (y : S5000x128.Idx) (i : S100000x128.Idx)
    (h0 : (i 0).val = t.val * 5000 + (y 0).val) (h1 : (i 1).val = (y 1).val) :
    iblk1 V c 3 t y = V c main_v14 i := by
  obtain ⟨-, -, -, -, -, e0, e1, -⟩ := idx_facts t
  show V c main_v14 (((cfg1.win 3).blk t).view.emb y) = V c main_v14 i
  refine congrArg (V c main_v14) (funext fun a => Fin.ext ?_)
  match a with
  | ⟨0, _⟩ => show win1_3.index t (0 : Fin 2) * 5000 + 1 * (y 0).val = (i 0).val; omega
  | ⟨1, _⟩ => show win1_3.index t (1 : Fin 2) * 128 + 1 * (y 1).val = (i 1).val; omega

/-- The weight and vector windows hold their whole arrays at every point. -/
theorem whole_ws (c : Dev nD) (t : Fin cfg1.N) : (iblk1 V c 1 t : S128x128.Idx → EReal) = V c main_arg9 := by
  obtain ⟨-, -, e0, e1, -⟩ := idx_facts t
  funext y
  show V c main_arg9 (((cfg1.win 1).blk t).view.emb y) = V c main_arg9 y
  refine congrArg (V c main_arg9) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega
theorem whole_bs (c : Dev nD) (t : Fin cfg1.N) : (iblk1 V c 2 t : S128.Idx → EReal) = V c main_arg10 := by
  obtain ⟨-, -, -, -, e0, -⟩ := idx_facts t
  funext y
  show V c main_arg10 (((cfg1.win 2).blk t).view.emb y) = V c main_arg10 y
  refine congrArg (V c main_arg10) (funext fun a => Fin.ext ?_)
  match a with
  | ⟨0, _⟩ => show win1_2.index t (0 : Fin 1) * 128 + 1 * (y 0).val = (y 0).val; omega
theorem whole_gamma (c : Dev nD) (t : Fin cfg1.N) : (iblk1 V c 4 t : S128.Idx → EReal) = V c main_arg11 := by
  obtain ⟨-, -, -, -, -, -, -, e0, -⟩ := idx_facts t
  funext y
  show V c main_arg11 (((cfg1.win 4).blk t).view.emb y) = V c main_arg11 y
  refine congrArg (V c main_arg11) (funext fun a => Fin.ext ?_)
  match a with
  | ⟨0, _⟩ => show win1_4.index t (0 : Fin 1) * 128 + 1 * (y 0).val = (y 0).val; omega
theorem whole_beta (c : Dev nD) (t : Fin cfg1.N) : (iblk1 V c 5 t : S128.Idx → EReal) = V c main_arg12 := by
  obtain ⟨-, -, -, -, -, -, -, -, e0, -⟩ := idx_facts t
  funext y
  show V c main_arg12 (((cfg1.win 5).blk t).view.emb y) = V c main_arg12 y
  refine congrArg (V c main_arg12) (funext fun a => Fin.ext ?_)
  match a with
  | ⟨0, _⟩ => show win1_5.index t (0 : Fin 1) * 128 + 1 * (y 0).val = (y 0).val; omega

/-- What a point stores at `(p, q)` of its block is the whole-array update at the row the block's row `p` is. -/
theorem node_point (H MS : S100000x128.Idx → EReal)
    (x0 : Vec Ideal S5000x128 .f32) (x1 : Vec Ideal S128x128 .f32) (x2 : Vec Ideal S128 .f32)
    (x3 : Vec Ideal S5000x128 .f32) (x4 x5 : Vec Ideal S128 .f32)
    (tv : ℕ) (p : Fin 5000) (q : Fin 128) (i : S100000x128.Idx)
    (hi0 : (i 0).val = tv * 5000 + p.val) (hi1 : (i 1).val = q.val)
    (h0 : ∀ (y : S5000x128.Idx) (i' : S100000x128.Idx), (i' 0).val = tv * 5000 + (y 0).val → (i' 1).val = (y 1).val → x0 y = H i')
    (h1 : ∀ (y : S5000x128.Idx) (i' : S100000x128.Idx), (i' 0).val = tv * 5000 + (y 0).val → (i' 1).val = (y 1).val → x3 y = MS i') :
    k1_pay1 (F := Ideal) x0 x1 x2 x3 x4 x5 (ix2 p q) = nodeArr (R := 100000) H x1 x2 MS x4 x5 i := by
  rw [node_payload]
  unfold nodeArr
  have hq : (i 1 : Fin 128) = q := Fin.ext hi1
  rw [hq]
  exact nodeRow_congr x0 x3 H MS x1 x2 x4 x5 p (i 0) q
    (fun a => h0 (ix2 p a) (ix2 (i 0) a) hi0 rfl) (fun a => h1 (ix2 p a) (ix2 (i 0) a) hi0 rfl)

/-- The result array the region leaves, from the arrays it finds. -/
abbrev G (c : Dev nD) : Buf (Elt Ideal) ((c : Thread nD τ).loc main_v15) :=
  nodeArr (R := 100000) (V c main_arg0) (V c main_arg9) (V c main_arg10) (V c main_v14) (V c main_arg11) (V c main_arg12)

/-- What point `t` writes back is block `t` of that array. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [whole_ws V c t, whole_bs V c t, whole_gamma V c t, whole_beta V c t]
  obtain ⟨-, -, -, -, -, -, -, -, -, e0, e1⟩ := idx_facts t
  funext y
  obtain ⟨p, q, rfl⟩ : ∃ (p : Fin 5000) (q : Fin 128), y = ix2 p q := ⟨y 0, y 1, eq_ix2 y⟩
  show k1_pay1 (F := Ideal) (iblk1 V c 0 t) (V c main_arg9) (V c main_arg10) (iblk1 V c 3 t) (V c main_arg11) (V c main_arg12) (ix2 p q)
    = G V c (((cfg1.win 6).blk t).view.emb (ix2 p q))
  refine node_point (V c main_arg0) (V c main_v14) (iblk1 V c 0 t) (V c main_arg9) (V c main_arg10) (iblk1 V c 3 t) (V c main_arg11)
    (V c main_arg12) t.val p q _ ?_ ?_ (fun y i' a b => blk_h V c t y i' a b) (fun y i' a b => blk_ms V c t y i' a b)
  · show win1_6.index t (0 : Fin 2) * 5000 + 1 * p.val = t.val * 5000 + p.val; omega
  · show win1_6.index t (1 : Fin 2) * 128 + 1 * q.val = q.val; omega

/-- An index of the result array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v15).slice (win1_6.rect t)).set ↔ _
  rw [View.set_slice_whole, Rect.mem_set_unit]
  exact Iff.rfl

/-- Every row of the result array is in the block of the point `row / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have ht : (i 0).val / 5000 < cfg1.N := by omega
  obtain ⟨-, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]; omega

/-- THE RESULT ARRAY after the region. -/
theorem final (c : Dev nD) : (dat1 V c).arrAt 6 cfg1.N = G V c :=
  (dat1 V c).arrAt_eq_of_cover 6 (G V c) (fun t _ => flushed_eq V c t) cover

end Cert.KernelIdeal.NodeArray

end
-- ==== Proof.HostTerms.lean ====
/-
  The host operations around the two kernels, as functions of the argument arrays (at the ideal values).

  `hsrc`: the rows of the node features gathered at the edges' source nodes (a negative index is first shifted by the
  number of nodes, as jax's indexing does). `onehot`: the edge type compared with the lane index 0 / 1, converted to a
  float. `ef18`: the sixteen edge features with the one-hot type appended, eighteen lanes. `w1h`, `w1e`: the first 128
  and the last 18 rows of the first layer's weights. `msum`: the messages summed into their destination nodes' rows,
  starting from zero.

  The two slices and the concatenation are read at an index: row `a` of `w1h` is row `a` of the weights, row `a` of
  `w1e` is row `128 + a`; lane `a < 16` of `ef18` is the edge feature `a`, lane `a ≥ 16` the one-hot lane `a - 16`.
-/
import proofs.«137087_j40029095199352_2_alg».proof.Proof.Gen.KernelIdeal
import Idealize.ShloMosaic.Lib.ValueIdx
import Idealize.ShloMosaic.Lib.ValueLayout
import Idealize.ShloMosaic.Lib.Pipeline.Value

noncomputable section

namespace Cert.KernelIdeal.HostTerms

open Cert.KernelIdeal Cert.KernelIdeal.Facts₀
open Idealize.ShloMosaic Idealize.ShloMosaic.ValueIdx

/-- The gathered source-node features. -/
def hsrc (x0 : (⟨S100000x128, .f32⟩ : BufTy).Contents (Elt Ideal)) (x2 : (⟨S1600000, .i32⟩ : BufTy).Contents (Elt Ideal)) :
    (⟨S1600000x128, .f32⟩ : BufTy).Contents (Elt Ideal) :=
  Host.gather gather_S100000x128_S1600000x1_S1600000x128_1_0_n_n_0_1_1128 x0
    (broadcastInDim S1600000x1 ![0] bcast_S1600000_S1600000x1_0
      (select (cmpi .slt x2 (broadcastInDim S1600000 ![] bcast_S_S1600000 (constantI S_ 32 0#32)))
        (addi x2 (broadcastInDim S1600000 ![] bcast_S_S1600000 (constantI S_ 32 100000#32))) x2))

/-- The one-hot edge type. -/
def onehot (x4 : (⟨S1600000, .i32⟩ : BufTy).Contents (Elt Ideal)) : (⟨S1600000x2, .f32⟩ : BufTy).Contents (Elt Ideal) :=
  uitofp (F := Ideal) .f32
    (cmpi .eq
      (broadcastInDim S1600000x2 ![0, 1] bcast_S1600000x1_S1600000x2_0_1 (broadcastInDim S1600000x1 ![0] bcast_S1600000_S1600000x1_0 x4))
      (broadcastInDim S1600000x2 ![0, 1] bcast_S1x2_S1600000x2_0_1 (iotaInDim S1x2 32 1)))

/-- The edge features with the one-hot type appended. -/
def ef18 (x1 : (⟨S1600000x16, .f32⟩ : BufTy).Contents (Elt Ideal)) (oh : (⟨S1600000x2, .f32⟩ : BufTy).Contents (Elt Ideal)) :
    (⟨S1600000x18, .f32⟩ : BufTy).Contents (Elt Ideal) :=
  concatenate S1600000x18 1 [⟨S1600000x16, x1⟩, ⟨S1600000x2, oh⟩] concatenates_S1600000x16_S1600000x2_S1600000x18_d1

/-- The first layer's weights for the source features, -/
def w1h (x5 : (⟨S146x128, .f32⟩ : BufTy).Contents (Elt Ideal)) : (⟨S128x128, .f32⟩ : BufTy).Contents (Elt Ideal) :=
  extractStridedSlice S128x128 ![0, 0] x5 slices_S146x128_S128x128_0_0
/-- and for the edge features and type. -/
def w1e (x5 : (⟨S146x128, .f32⟩ : BufTy).Contents (Elt Ideal)) : (⟨S18x128, .f32⟩ : BufTy).Contents (Elt Ideal) :=
  extractStridedSlice S18x128 ![128, 0] x5 slices_S146x128_S18x128_128_0

/-- The messages summed at their destination nodes. -/
def msum (x3 : (⟨S1600000, .i32⟩ : BufTy).Contents (Elt Ideal)) (msg : (⟨S1600000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x3) msg

theorem w1h_apply (x5 : (⟨S146x128, .f32⟩ : BufTy).Contents (Elt Ideal)) (a : Fin 128) (k : Fin 128) :
    w1h x5 (ix2 a k) = x5 (ix2 (⟨a.val, by omega⟩ : Fin 146) k) :=
  slice2_axis0_apply 0 x5 slices_S146x128_S128x128_0_0 a k _ (Nat.zero_add _).symm

theorem w1e_apply (x5 : (⟨S146x128, .f32⟩ : BufTy).Contents (Elt Ideal)) (a : Fin 18) (k : Fin 128) :
    w1e x5 (ix2 a k) = x5 (ix2 (⟨128 + a.val, by omega⟩ : Fin 146) k) :=
  slice2_axis0_apply 128 x5 slices_S146x128_S18x128_128_0 a k _ rfl

theorem ef18_left (x1 : (⟨S1600000x16, .f32⟩ : BufTy).Contents (Elt Ideal)) (oh : (⟨S1600000x2, .f32⟩ : BufTy).Contents (Elt Ideal))
    (e : Fin 1600000) (a : Fin 18) (h : a.val < 16) : ef18 x1 oh (ix2 e a) = x1 (ix2 e (⟨a.val, h⟩ : Fin 16)) := by
  unfold ef18
  refine concatenate_pair_apply_left (1 : Fin 2) x1 oh _ (ix2 e a) rfl (ix2 e (⟨a.val, h⟩ : Fin 16)) fun b => ?_
  match b with
  | ⟨0, _⟩ => rfl
  | ⟨1, _⟩ => rfl

theorem ef18_right (x1 : (⟨S1600000x16, .f32⟩ : BufTy).Contents (Elt Ideal)) (oh : (⟨S1600000x2, .f32⟩ : BufTy).Contents (Elt Ideal))
    (e : Fin 1600000) (a : Fin 18) (h : 16 ≤ a.val) : ef18 x1 oh (ix2 e a) = oh (ix2 e (⟨a.val - 16, by omega⟩ : Fin 2)) := by
  unfold ef18
  refine concatenate_pair_apply_right (1 : Fin 2) x1 oh _ (ix2 e a) rfl rfl (ix2 e (⟨a.val - 16, by omega⟩ : Fin 2)) (fun b hb => ?_) ?_
  · match b with
    | ⟨0, _⟩ => rfl
    | ⟨1, _⟩ => exact absurd rfl hb
  · show a.val - 16 + 16 = a.val; omega

end Cert.KernelIdeal.HostTerms

end
-- ==== Proof.KernelValue.lean ====
/-
  The kernel program's result as ONE function of its argument arrays.

  The node kernel's region leaves `GNN.nodeArr` of the arrays it finds; those are the node features, the self
  weights and the three vectors as launched (no operation writes an argument), and the scatter-add of the message
  array, which the edge kernel's region left as `GNN.edgeArr` of what IT found: the gathered source features, the
  eighteen-lane edge features, the two slices of the first layer's weights — each the host operations' term of the
  launch memory — and the two bias vectors and the second layer's weights as launched.
-/
import proofs.«137087_j40029095199352_2_alg».proof.Proof.KernelRun
import proofs.«137087_j40029095199352_2_alg».proof.Proof.KernelEdgeArray
import proofs.«137087_j40029095199352_2_alg».proof.Proof.KernelNodeArray
import proofs.«137087_j40029095199352_2_alg».proof.Proof.HostTerms

set_option maxRecDepth 16384

noncomputable section

namespace Cert.KernelIdeal.Value

open Cert.KernelIdeal Cert.KernelIdeal.Gen Cert.KernelIdeal.HostTerms Cert.GNN
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## What the edge kernel's region finds -/

theorem v6_eq (c : Dev nD) : V3 m ρ c main_v6 = hsrc (m ((c : Thread nD τ).loc main_arg0)) (m ((c : Thread nD τ).loc main_arg2)) := by
  show StableHlo.after hostOps0_2 (W2 m ρ c) (Proc.devRef .tc main_v6) = _
  after_results
  rfl

theorem v8_eq (c : Dev nD) : V3 m ρ c main_v8 = ef18 (m ((c : Thread nD τ).loc main_arg1)) (onehot (m ((c : Thread nD τ).loc main_arg4))) := by
  show StableHlo.after hostOps0_2 (W2 m ρ c) (Proc.devRef .tc main_v8) = _
  after_results
  rfl

theorem v9_eq (c : Dev nD) : V3 m ρ c main_v9 = w1h (m ((c : Thread nD τ).loc main_arg5)) := by
  show StableHlo.after hostOps0_2 (W2 m ρ c) (Proc.devRef .tc main_v9) = _
  after_results
  rfl

theorem v10_eq (c : Dev nD) : V3 m ρ c main_v10 = w1e (m ((c : Thread nD τ).loc main_arg5)) := by
  show StableHlo.after hostOps0_2 (W2 m ρ c) (Proc.devRef .tc main_v10) = _
  after_results
  rfl

theorem V3_arg6 (c : Dev nD) : V3 m ρ c main_arg6 = m ((c : Thread nD τ).loc main_arg6) := by
  show StableHlo.after hostOps0_2 (W2 m ρ c) (Proc.devRef .tc main_arg6) = _
  after_results
theorem V3_arg7 (c : Dev nD) : V3 m ρ c main_arg7 = m ((c : Thread nD τ).loc main_arg7) := by
  show StableHlo.after hostOps0_2 (W2 m ρ c) (Proc.devRef .tc main_arg7) = _
  after_results
theorem V3_arg8 (c : Dev nD) : V3 m ρ c main_arg8 = m ((c : Thread nD τ).loc main_arg8) := by
  show StableHlo.after hostOps0_2 (W2 m ρ c) (Proc.devRef .tc main_arg8) = _
  after_results
theorem V3_arg3 (c : Dev nD) : V3 m ρ c main_arg3 = m ((c : Thread nD τ).loc main_arg3) := by
  show StableHlo.after hostOps0_2 (W2 m ρ c) (Proc.devRef .tc main_arg3) = _
  after_results

/-- The message array the edge kernel's region leaves, from the launch memory. -/
abbrev messages (c : Dev nD) : (⟨S1600000x128, .f32⟩ : BufTy).Contents (Elt Ideal) :=
  edgeArr (R := 1600000) (hsrc (m ((c : Thread nD τ).loc main_arg0)) (m ((c : Thread nD τ).loc main_arg2)))
    (ef18 (m ((c : Thread nD τ).loc main_arg1)) (onehot (m ((c : Thread nD τ).loc main_arg4))))
    (w1h (m ((c : Thread nD τ).loc main_arg5))) (w1e (m ((c : Thread nD τ).loc main_arg5)))
    (m ((c : Thread nD τ).loc main_arg6)) (m ((c : Thread nD τ).loc main_arg7)) (m ((c : Thread nD τ).loc main_arg8))

theorem v11_eq (c : Dev nD) : W4 m ρ c (Proc.devRef .tc main_v11) = messages m c := by
  refine (W4_arr m ρ c 7).trans ((EdgeArray.final (V3 m ρ) c).trans ?_)
  unfold EdgeArray.G messages
  rw [v6_eq, v8_eq, v9_eq, v10_eq, V3_arg6, V3_arg7, V3_arg8]

/-! ## What the node kernel's region finds -/

theorem W4_arg3 (c : Dev nD) : W4 m ρ c (Proc.devRef .tc main_arg3) = m ((c : Thread nD τ).loc main_arg3) :=
  (W4_of_ne m ρ c main_arg3 (by decide)).trans (V3_arg3 m ρ c)

theorem v14_eq (c : Dev nD) : V5 m ρ c main_v14 = msum (m ((c : Thread nD τ).loc main_arg3)) (messages m c) := by
  show StableHlo.after hostOps1 (W4 m ρ c) (Proc.devRef .tc main_v14) = _
  after_results
  rw [W4_arg3, v11_eq]
  rfl

theorem V5_arg0 (c : Dev nD) : V5 m ρ c main_arg0 = m ((c : Thread nD τ).loc main_arg0) :=
  ((W6_arr m ρ c 0).trans (((dat1 (V5 m ρ) c).arrAt_in 0 rfl _).trans (A_eq1 (V5 m ρ) c 0))).symm.trans (W6_main_arg0 m ρ c)
theorem V5_arg9 (c : Dev nD) : V5 m ρ c main_arg9 = m ((c : Thread nD τ).loc main_arg9) :=
  ((W6_arr m ρ c 1).trans (((dat1 (V5 m ρ) c).arrAt_in 1 rfl _).trans (A_eq1 (V5 m ρ) c 1))).symm.trans (W6_main_arg9 m ρ c)
theorem V5_arg10 (c : Dev nD) : V5 m ρ c main_arg10 = m ((c : Thread nD τ).loc main_arg10) :=
  ((W6_arr m ρ c 2).trans (((dat1 (V5 m ρ) c).arrAt_in 2 rfl _).trans (A_eq1 (V5 m ρ) c 2))).symm.trans (W6_main_arg10 m ρ c)
theorem V5_arg11 (c : Dev nD) : V5 m ρ c main_arg11 = m ((c : Thread nD τ).loc main_arg11) :=
  ((W6_arr m ρ c 4).trans (((dat1 (V5 m ρ) c).arrAt_in 4 rfl _).trans (A_eq1 (V5 m ρ) c 4))).symm.trans (W6_main_arg11 m ρ c)
theorem V5_arg12 (c : Dev nD) : V5 m ρ c main_arg12 = m ((c : Thread nD τ).loc main_arg12) :=
  ((W6_arr m ρ c 5).trans (((dat1 (V5 m ρ) c).arrAt_in 5 rfl _).trans (A_eq1 (V5 m ρ) c 5))).symm.trans (W6_main_arg12 m ρ c)

/-- The result array, from the launch memory. -/
abbrev result (c : Dev nD) : (⟨S100000x128, .f32⟩ : BufTy).Contents (Elt Ideal) :=
  nodeArr (R := 100000) (m ((c : Thread nD τ).loc main_arg0)) (m ((c : Thread nD τ).loc main_arg9)) (m ((c : Thread nD τ).loc main_arg10))
    (msum (m ((c : Thread nD τ).loc main_arg3)) (messages m c))
    (m ((c : Thread nD τ).loc main_arg11)) (m ((c : Thread nD τ).loc main_arg12))

theorem final (c : Dev nD) : (dat1 (V5 m ρ) c).arrAt 6 cfg1.N = result m c := by
  refine (NodeArray.final (V5 m ρ) c).trans ?_
  unfold NodeArray.G result
  rw [V5_arg0, V5_arg9, V5_arg10, v14_eq, V5_arg11, V5_arg12]

/-- THE RUN: every weakly fair execution terminates without a fault, the result buffer holds `result` of the launch
    memory, and the arguments are unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (final m ρ c), (h c).2⟩) (Run.run_out m ρ)

end Cert.KernelIdeal.Value

end
-- ==== Proof.ReferenceValue.lean ====
/-
  The reference's result as the same function of the argument arrays.

  Read one operation at a time, the reference's message array is `GNN.edgeArr` of the gathered source features, the
  eighteen-lane edge features and the two slices of the first layer's weights: its one product over the 146
  concatenated lanes splits into the sum over the first 128 lanes (the source features against the first 128 weight
  rows) plus the sum over the last 18 (the edge features and the one-hot type against the last 18 rows) — a sum over
  `Fin (128 + 18)` split in two, which needs only that addition of extended reals is commutative and associative.
  Its result array is `GNN.nodeArr` of the node features, the self weights, the summed messages and the vectors:
  the same lane sums divided by 128, the same reciprocal square root, in the same order.
-/
import proofs.«137087_j40029095199352_2_alg».proof.Proof.Gen.ReferenceIdeal.Read
import proofs.«137087_j40029095199352_2_alg».proof.Proof.HostTerms
import proofs.«137087_j40029095199352_2_alg».proof.Proof.LibRowOps
import proofs.«137087_j40029095199352_2_alg».proof.Proof.EdgeNodeSpec

set_option maxRecDepth 16384

noncomputable section

namespace Cert.ReferenceIdeal.RefValue

open Cert.ReferenceIdeal Cert.ReferenceIdeal.Read
open Idealize.ShloMosaic Idealize.ShloMosaic.ValueIdx Cert.GNN Cert.LibRowOps

local notation "hsrcK" => Cert.KernelIdeal.HostTerms.hsrc
local notation "onehotK" => Cert.KernelIdeal.HostTerms.onehot
local notation "ef18K" => Cert.KernelIdeal.HostTerms.ef18
local notation "w1hK" => Cert.KernelIdeal.HostTerms.w1h
local notation "w1eK" => Cert.KernelIdeal.HostTerms.w1e
local notation "msumK" => Cert.KernelIdeal.HostTerms.msum

/-! ## The shared host operations are the same terms -/

theorem hsrc_eq (x0 : (⟨S100000x128, .f32⟩ : BufTy).Contents (Elt Ideal)) (x2 : (⟨S1600000, .i32⟩ : BufTy).Contents (Elt Ideal)) :
    val_main_v7 (F := Ideal) x0 x2 = hsrcK x0 x2 := by
  unfold val_main_v7 val_main_v6 val_main_v5 val_main_v4 val_main_v3 val_main_v2 val_main_v1 val_main_c val_main_c_0
    Cert.KernelIdeal.HostTerms.hsrc
  rfl

theorem onehot_eq (x4 : (⟨S1600000, .i32⟩ : BufTy).Contents (Elt Ideal)) : val_main_v0 (F := Ideal) x4 = onehotK x4 := by
  unfold val_main_v0 val_main_call0_v4 val_main_call0_v3 val_main_call0_v2 val_main_call0_v1 val_main_call0_v0
    Cert.KernelIdeal.HostTerms.onehot
  rfl

theorem msum_eq (x0 : (⟨S100000x128, .f32⟩ : BufTy).Contents (Elt Ideal)) (x1 : (⟨S1600000x16, .f32⟩ : BufTy).Contents (Elt Ideal))
    (x2 x3 x4 : (⟨S1600000, .i32⟩ : BufTy).Contents (Elt Ideal)) (x5 : (⟨S146x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v20 (F := Ideal) x0 x1 x2 x3 x4 x5 x6 x7 x8 = msumK x3 (val_main_v17 (F := Ideal) x0 x1 x2 x4 x5 x6 x7 x8) := by
  unfold val_main_v20
  generalize val_main_v17 (F := Ideal) x0 x1 x2 x4 x5 x6 x7 x8 = msg
  unfold val_main_v19 val_main_v18 val_main_cst Cert.KernelIdeal.HostTerms.msum
  rfl

/-! ## The 146 concatenated lanes, read -/

section Lanes
variable (x0 : (⟨S100000x128, .f32⟩ : BufTy).Contents (Elt Ideal)) (x1 : (⟨S1600000x16, .f32⟩ : BufTy).Contents (Elt Ideal))
  (x2 x4 : (⟨S1600000, .i32⟩ : BufTy).Contents (Elt Ideal))

/-- Lanes 0 … 127 are the gathered source features. -/
theorem z_hs (e : Fin 1600000) (a : Fin 128) (h : a.val < 146) :
    val_main_v8 (F := Ideal) x0 x1 x2 x4 (ix2 e (⟨a.val, h⟩ : Fin 146)) = val_main_v7 (F := Ideal) x0 x2 (ix2 e a) := by
  unfold val_main_v8
  refine concatenate_apply_piece (1 : Fin 2) [⟨S1600000x128, val_main_v7 (F := Ideal) x0 x2⟩, ⟨S1600000x16, x1⟩, ⟨S1600000x2, val_main_v0 (F := Ideal) x4⟩] _ (ix2 e (⟨a.val, h⟩ : Fin 146)) 0 ?_ S1600000x128 (val_main_v7 (F := Ideal) x0 x2) rfl rfl 0 rfl (ix2 e a)
    (fun b hb => ?_) ?_
  · show (0 : ℕ) < 3; omega
  · match b with
    | ⟨0, _⟩ => rfl
    | ⟨1, _⟩ => exact absurd rfl hb
  · show 0 + a.val = a.val; omega

/-- Lanes 128 … 143 are the sixteen edge features. -/
theorem z_feat (e : Fin 1600000) (a : Fin 18) (h : 128 + a.val < 146) (h16 : a.val < 16) :
    val_main_v8 (F := Ideal) x0 x1 x2 x4 (ix2 e (⟨128 + a.val, h⟩ : Fin 146)) = x1 (ix2 e (⟨a.val, h16⟩ : Fin 16)) := by
  unfold val_main_v8
  refine concatenate_apply_piece (1 : Fin 2) [⟨S1600000x128, val_main_v7 (F := Ideal) x0 x2⟩, ⟨S1600000x16, x1⟩, ⟨S1600000x2, val_main_v0 (F := Ideal) x4⟩] _ (ix2 e (⟨128 + a.val, h⟩ : Fin 146)) 1 ?_ S1600000x16 x1 rfl rfl 128 rfl
    (ix2 e (⟨a.val, h16⟩ : Fin 16)) (fun b hb => ?_) ?_
  · show (1 : ℕ) < 3; omega
  · match b with
    | ⟨0, _⟩ => rfl
    | ⟨1, _⟩ => exact absurd rfl hb
  · rfl

/-- Lanes 144, 145 are the one-hot edge type. -/
theorem z_type (e : Fin 1600000) (a : Fin 18) (h : 128 + a.val < 146) (h16 : 16 ≤ a.val) :
    val_main_v8 (F := Ideal) x0 x1 x2 x4 (ix2 e (⟨128 + a.val, h⟩ : Fin 146))
      = val_main_v0 (F := Ideal) x4 (ix2 e (⟨a.val - 16, by omega⟩ : Fin 2)) := by
  unfold val_main_v8
  refine concatenate_apply_piece (1 : Fin 2) [⟨S1600000x128, val_main_v7 (F := Ideal) x0 x2⟩, ⟨S1600000x16, x1⟩, ⟨S1600000x2, val_main_v0 (F := Ideal) x4⟩] _ (ix2 e (⟨128 + a.val, h⟩ : Fin 146)) 2 ?_ S1600000x2 (val_main_v0 (F := Ideal) x4) rfl rfl 144 rfl
    (ix2 e (⟨a.val - 16, by omega⟩ : Fin 2)) (fun b hb => ?_) ?_
  · show (2 : ℕ) < 3; omega
  · match b with
    | ⟨0, _⟩ => rfl
    | ⟨1, _⟩ => exact absurd rfl hb
  · show 144 + (a.val - 16) = 128 + a.val; omega

/-- So lanes 128 … 145 are the eighteen-lane edge features the kernel's program concatenates. -/
theorem z_ef (e : Fin 1600000) (a : Fin 18) (h : 128 + a.val < 146) :
    val_main_v8 (F := Ideal) x0 x1 x2 x4 (ix2 e (⟨128 + a.val, h⟩ : Fin 146)) = ef18K x1 (val_main_v0 (F := Ideal) x4) (ix2 e a) := by
  by_cases h16 : a.val < 16
  · rw [z_feat x0 x1 x2 x4 e a h h16, Cert.KernelIdeal.HostTerms.ef18_left _ _ e a h16]
  · rw [z_type x0 x1 x2 x4 e a h (by omega), Cert.KernelIdeal.HostTerms.ef18_right _ _ e a (by omega)]

end Lanes

/-! ## The message array -/

theorem lidx14 (e : Fin 1600000) (j k : Fin 128) : lidx_main_v14 (ix2 e j) k = ix2 e k :=
  funext fun a => Fin.ext (by match a with | ⟨0, _⟩ => rfl | ⟨1, _⟩ => rfl)
theorem ridx14 (e : Fin 1600000) (j k : Fin 128) : ridx_main_v14 (ix2 e j) k = ix2 k j :=
  funext fun a => Fin.ext (by match a with | ⟨0, _⟩ => rfl | ⟨1, _⟩ => rfl)
theorem lidx9 (e : Fin 1600000) (k : Fin 128) (a : Fin 146) : lidx_main_v9 (ix2 e k) a = ix2 e a :=
  funext fun b => Fin.ext (by match b with | ⟨0, _⟩ => rfl | ⟨1, _⟩ => rfl)
theorem ridx9 (e : Fin 1600000) (k : Fin 128) (a : Fin 146) : ridx_main_v9 (ix2 e k) a = ix2 a k :=
  funext fun b => Fin.ext (by match b with | ⟨0, _⟩ => rfl | ⟨1, _⟩ => rfl)
theorem idx_b2 (e : Fin 1600000) (j : Fin 128) : idx_main_v15 (idx_main_v16 (ix2 e j)) = ix1 j :=
  funext fun b => Fin.ext (by match b with | ⟨0, _⟩ => rfl)
theorem idx_b1 (e : Fin 1600000) (k : Fin 128) : idx_main_v10 (idx_main_v11 (ix2 e k)) = ix1 k :=
  funext fun b => Fin.ext (by match b with | ⟨0, _⟩ => rfl)

/-- A sum over the 146 lanes is the sum over the first 128 plus the sum over the last 18. -/
theorem split146 (f : Fin 146 → EReal) :
    ∑ a, f a = (∑ a : Fin 128, f ⟨a.val, by omega⟩) + ∑ a : Fin 18, f ⟨128 + a.val, by omega⟩ :=
  sum_fin_split 128 18 f

theorem edge_eq (x0 : (⟨S100000x128, .f32⟩ : BufTy).Contents (Elt Ideal)) (x1 : (⟨S1600000x16, .f32⟩ : BufTy).Contents (Elt Ideal))
    (x2 x4 : (⟨S1600000, .i32⟩ : BufTy).Contents (Elt Ideal)) (x5 : (⟨S146x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v17 (F := Ideal) x0 x1 x2 x4 x5 x6 x7 x8
      = edgeArr (R := 1600000) (val_main_v7 (F := Ideal) x0 x2) (ef18K x1 (val_main_v0 (F := Ideal) x4)) (w1hK x5) (w1eK x5) x6 x7 x8 := by
  funext i
  obtain ⟨e, j, rfl⟩ : ∃ (e : Fin 1600000) (j : Fin 128), i = ix2 e j := ⟨i 0, i 1, eq_ix2 i⟩
  show _ = edgeRow (R := 1600000) (val_main_v7 (F := Ideal) x0 x2) (ef18K x1 (val_main_v0 (F := Ideal) x4)) (w1hK x5) (w1eK x5) x6 x7 x8 e j
  unfold edgeRow
  simp only [val_main_v17_apply, val_main_v16_apply, val_main_v15_apply, val_main_v14_apply, val_main_v13_apply,
    val_main_v12_apply, val_main_call1_v0_apply, val_main_call1_cst_apply, val_main_v11_apply, val_main_v10_apply,
    val_main_v9_apply, lidx14, ridx14, lidx9, ridx9, idx_b2, idx_b1, Ideal.addf_def, Ideal.mulf_def, Ideal.maximumf_def,
    Ideal.ofBits_def, split146, z_hs, z_ef, Cert.KernelIdeal.HostTerms.w1h_apply, Cert.KernelIdeal.HostTerms.w1e_apply]

/-! ## The result array -/

theorem lidx21 (n : Fin 100000) (l k : Fin 128) : lidx_main_v21 (ix2 n l) k = ix2 n k :=
  funext fun a => Fin.ext (by match a with | ⟨0, _⟩ => rfl | ⟨1, _⟩ => rfl)
theorem ridx21 (n : Fin 100000) (l k : Fin 128) : ridx_main_v21 (ix2 n l) k = ix2 k l :=
  funext fun a => Fin.ext (by match a with | ⟨0, _⟩ => rfl | ⟨1, _⟩ => rfl)
theorem idx_bs (n : Fin 100000) (l : Fin 128) : idx_main_v22 (idx_main_v23 (ix2 n l)) = ix1 l :=
  funext fun b => Fin.ext (by match b with | ⟨0, _⟩ => rfl)
theorem idx_gamma (n : Fin 100000) (l : Fin 128) : idx_main_v45 (idx_main_v46 (ix2 n l)) = ix1 l :=
  funext fun b => Fin.ext (by match b with | ⟨0, _⟩ => rfl)
theorem idx_beta (n : Fin 100000) (l : Fin 128) : idx_main_v48 (idx_main_v49 (ix2 n l)) = ix1 l :=
  funext fun b => Fin.ext (by match b with | ⟨0, _⟩ => rfl)
theorem idx_mean31 (n : Fin 100000) (l k : Fin 128) : idx_main_v27 (idx_main_v28 (idx_main_v31 (ix2 n l))) k = ix2 n k :=
  funext fun a => Fin.ext (by match a with | ⟨0, _⟩ => rfl | ⟨1, _⟩ => rfl)
theorem idx_mean38 (n : Fin 100000) (l k : Fin 128) : idx_main_v27 (idx_main_v28 (idx_main_v38 (ix2 n l))) k = ix2 n k :=
  funext fun a => Fin.ext (by match a with | ⟨0, _⟩ => rfl | ⟨1, _⟩ => rfl)
theorem idx_var (n : Fin 100000) (l k : Fin 128) : idx_main_v34 (idx_main_v35 (idx_main_v43 (ix2 n l))) k = ix2 n k :=
  funext fun a => Fin.ext (by match a with | ⟨0, _⟩ => rfl | ⟨1, _⟩ => rfl)

theorem node_eq (x0 : (⟨S100000x128, .f32⟩ : BufTy).Contents (Elt Ideal)) (x1 : (⟨S1600000x16, .f32⟩ : BufTy).Contents (Elt Ideal))
    (x2 x3 x4 : (⟨S1600000, .i32⟩ : BufTy).Contents (Elt Ideal)) (x5 : (⟨S146x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 x11 x12 : (⟨S128, .f32⟩ : BufTy).Contents (Elt Ideal)) :
    val_main_v50 (F := Ideal) x0 x1 x2 x3 x4 x5 x6 x7 x8 x9 x10 x11 x12
      = nodeArr (R := 100000) x0 x9 x10 (val_main_v20 (F := Ideal) x0 x1 x2 x3 x4 x5 x6 x7 x8) x11 x12 := by
  funext i
  obtain ⟨n, j, rfl⟩ : ∃ (n : Fin 100000) (j : Fin 128), i = ix2 n j := ⟨i 0, i 1, eq_ix2 i⟩
  show _ = nodeRow (R := 100000) x0 x9 x10 (val_main_v20 (F := Ideal) x0 x1 x2 x3 x4 x5 x6 x7 x8) x11 x12 n j
  unfold nodeRow lnRow nodePre
  simp only [val_main_v50_apply, val_main_v49_apply, val_main_v48_apply, val_main_v47_apply, val_main_v46_apply,
    val_main_v45_apply, val_main_v44_apply, val_main_v43_apply, val_main_v42_apply, val_main_v41_apply, val_main_v40_apply,
    val_main_cst_5_apply, val_main_v39_apply, val_main_v38_apply, val_main_v37_apply, val_main_v36_apply, val_main_cst_4_apply,
    val_main_v35_apply, val_main_v34_apply, val_main_cst_3_apply, val_main_v33_apply, val_main_v32_apply, val_main_v31_apply,
    val_main_v30_apply, val_main_v29_apply, val_main_cst_2_apply, val_main_v28_apply, val_main_v27_apply, val_main_cst_1_apply,
    val_main_v26_apply, val_main_call2_v0_apply, val_main_call2_cst_apply, val_main_v25_apply, val_main_v24_apply,
    val_main_v23_apply, val_main_v22_apply, val_main_v21_apply,
    lidx21, ridx21, idx_bs, idx_gamma, idx_beta, idx_mean31, idx_mean38, idx_var,
    Ideal.addf_def, Ideal.subf_def, Ideal.mulf_def, Ideal.maximumf_def, Ideal.hostDivf_def, Ideal.hostUnary_rsqrt_def,
    Ideal.ofBits_def, zeroLit, lanesLit, epsLit, Ideal.ofBits_zero_f32, zero_add]

/-! ## The whole reference -/

/-- The reference's result term is the node update of the summed edge messages, in the kernel program's own
    host vocabulary. -/
theorem result_eq (x0 : (⟨S100000x128, .f32⟩ : BufTy).Contents (Elt Ideal)) (x1 : (⟨S1600000x16, .f32⟩ : BufTy).Contents (Elt Ideal))
    (x2 x3 x4 : (⟨S1600000, .i32⟩ : BufTy).Contents (Elt Ideal)) (x5 : (⟨S146x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 x11 x12 : (⟨S128, .f32⟩ : BufTy).Contents (Elt Ideal)) :
    val_main_v50 (F := Ideal) x0 x1 x2 x3 x4 x5 x6 x7 x8 x9 x10 x11 x12
      = nodeArr (R := 100000) x0 x9 x10
          (msumK x3 (edgeArr (R := 1600000) (hsrcK x0 x2) (ef18K x1 (onehotK x4)) (w1hK x5) (w1eK x5) x6 x7 x8)) x11 x12 := by
  rw [node_eq, msum_eq, edge_eq, hsrc_eq, onehot_eq]

end Cert.ReferenceIdeal.RefValue

end
-- ==== Proof.lean ====
/-
  A graph-network layer against its jnp reference, on the extended reals.

  The kernel program gathers the source nodes' features, appends the one-hot edge type to the edge features, slices the
  first layer's weights in two, runs a per-edge two-layer perceptron as a Pallas kernel over 400 blocks of 4000 edges,
  sums the messages into their destination nodes on the host, and runs a per-node kernel over 20 blocks of 5000 nodes:
  self transform, residual, clamp at zero, layer norm. The reference concatenates source features, edge features and
  one-hot type into 146 lanes and multiplies by the unsplit weights.

  At the ideal values the two are one function of the arguments: the 146-lane product is the sum of the 128-lane and
  the 18-lane products (a finite sum split in two — addition of extended reals is commutative and associative, so no
  finiteness of the inputs is used), rounding to bf16 on the way into the matrix unit is the identity, a matrix
  product into the zero accumulator is the plain sum, and everything else — the gather, the scatter-add, the lane
  means, the reciprocal square root — is the same operation on both sides, applied to equal operands.

  The frames of the two kernel programs are the generated ones; the reference's frame is its generated run with the
  result dropped; the idealization rewrote nothing, so `preserves` is trivial.
-/
import proofs.«137087_j40029095199352_2_alg».proof.Defs
import proofs.«137087_j40029095199352_2_alg».proof.Proof.Gen.Kernel
import proofs.«137087_j40029095199352_2_alg».proof.Proof.Gen.Kernel.Skeleton
import proofs.«137087_j40029095199352_2_alg».proof.Proof.Gen.Kernel.Launch
import proofs.«137087_j40029095199352_2_alg».proof.Proof.Gen.Kernel.Points
import proofs.«137087_j40029095199352_2_alg».proof.Proof.Gen.Kernel.Frame
import proofs.«137087_j40029095199352_2_alg».proof.Proof.Gen.KernelIdeal
import proofs.«137087_j40029095199352_2_alg».proof.Proof.Gen.KernelIdeal.Skeleton
import proofs.«137087_j40029095199352_2_alg».proof.Proof.Gen.KernelIdeal.Launch
import proofs.«137087_j40029095199352_2_alg».proof.Proof.Gen.KernelIdeal.Points
import proofs.«137087_j40029095199352_2_alg».proof.Proof.Gen.KernelIdeal.Frame
import proofs.«137087_j40029095199352_2_alg».proof.Proof.Gen.ReferenceIdeal
import proofs.«137087_j40029095199352_2_alg».proof.Proof.Gen.Pre_finite_inputs
import proofs.«137087_j40029095199352_2_alg».proof.Proof.Gen.ReferenceIdeal.Run
import proofs.«137087_j40029095199352_2_alg».proof.Proof.Gen.ReferenceIdeal.Read
import proofs.«137087_j40029095199352_2_alg».proof.Proof.KernelValue
import proofs.«137087_j40029095199352_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the node update of the summed edge messages, as one function of arguments that agree. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v50_eq, a0, a1, a2, a3, a4, a5, a6, a7, a8, a9, a10, a11, a12]
  exact Cert.ReferenceIdeal.RefValue.result_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
